-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000x128 : Shape := ⟨2, ![50000, 128]⟩
abbrev S2000x256 : Shape := ⟨2, ![2000, 256]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x1, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x64, .f32⟩
  | .hbm, ⟨48, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S800000x1, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.NamedRun.lean ====
/-
  The idealized kernel program's run with its result named. The program is seven segments — host lines, the first
  projection, host lines (gather, scale, segment sum, bias row), the first bias-and-clamp, the second projection, host
  lines again, the second bias-and-clamp — and the buffer contents at each boundary form a fold from the launch memory.
  Every weakly fair execution terminates without a fault, and in the final memory every unscoped buffer holds the last
  boundary's contents: in particular the result buffer does, and the seven arguments are as launched.
-/
import proofs.«165601_j27754078666886_2_alg».proof.Proof.Gen.KernelIdeal.Frame

set_option maxRecDepth 16384

noncomputable section

namespace Cert.KernelIdeal.Outcome

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. -/
theorem run : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Outcome

end
-- ==== Proof.Network.lean ====
/-
  The two-layer graph convolution as one function of the seven argument arrays, at exact arithmetic.

  With x the node features, (src, dst) the two rows of the edge list, ew the edge weights, W₁, b₁, W₂, b₂ the layers'
  weights and biases, a layer is
      support = h · W            (a matrix product)
      msg[e]  = support[src[e]] · ew[e]        (gather a row per edge — a negative index counted from the end, then
                                                clamped — and scale it)
      agg[n]  = Σ_{e : dst[e] = n} msg[e]      (segment sum into a zero matrix)
      out     = max (agg + b) 0
  and the network is the second layer applied to the first layer's output. The gather, scale and segment sum are kept
  as the host's own operations: both programs apply literally the same ones, so nothing of them is ever opened.
-/
import proofs.«165601_j27754078666886_2_alg».proof.Proof.Gen.KernelIdeal
import Idealize.ShloMosaic.Lib.ValueIdx

noncomputable section

namespace Cert.KernelIdeal.Network

open Idealize.ShloMosaic Idealize.ShloMosaic.ValueIdx Cert.KernelIdeal Cert.KernelIdeal.Facts₀

/-- The product of a 50000×256 by a 256×128 matrix, entry by entry. -/
def product1 (x : S50000x256.Idx → Elt Ideal .f32) (w : S256x128.Idx → Elt Ideal .f32) : S50000x128.Idx → Elt Ideal .f32 :=
  fun i => ∑ k : Fin 256, x (ix2 (i 0) k) * w (ix2 k (i 1))

/-- The product of a 50000×128 by a 128×64 matrix, entry by entry. -/
def product2 (x : S50000x128.Idx → Elt Ideal .f32) (w : S128x64.Idx → Elt Ideal .f32) : S50000x64.Idx → Elt Ideal .f32 :=
  fun i => ∑ k : Fin 128, x (ix2 (i 0) k) * w (ix2 k (i 1))

/-- A 50000×128 matrix with a bias row added to every row, clamped below at zero (the f32 word of +0). -/
def biasClamp1 (a : S50000x128.Idx → Elt Ideal .f32) (b : S1x128.Idx → Elt Ideal .f32) : S50000x128.Idx → Elt Ideal .f32 :=
  fun i => max (a (ix2 (i 0) (i 1)) + b (ix2 (0 : Fin 1) (i 1))) (Ideal.ofBits .f32 0x00000000#32)

/-- A 50000×64 matrix with a bias row added to every row, clamped below at zero (the f32 word of +0). -/
def biasClamp2 (a : S50000x64.Idx → Elt Ideal .f32) (b : S1x64.Idx → Elt Ideal .f32) : S50000x64.Idx → Elt Ideal .f32 :=
  fun i => max (a (ix2 (i 0) (i 1)) + b (ix2 (0 : Fin 1) (i 1))) (Ideal.ofBits .f32 0x00000000#32)

/-- Row 0 of the edge list: each edge's source node. -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row 1 of the edge list: each edge's target node. -/
def targets (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The first layer's messages summed per target node: the support rows gathered at the sources (a negative source
    counted from the end), scaled by the edge weights, scatter-added into the zero matrix at the targets. -/
def aggregate1 (s : (⟨S50000x128, .f32⟩ : BufTy).Contents (Elt Ideal)) (src dst : (⟨S800000, .i32⟩ : BufTy).Contents (Elt Ideal))
    (ew : (⟨S800000, .f32⟩ : BufTy).Contents (Elt Ideal)) : (⟨S50000x128, .f32⟩ : BufTy).Contents (Elt Ideal) :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 dst) (mulf (Host.gather gather_S50000x128_S800000x1_S800000x128_1_0_n_n_0_1_1128 s (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 ew)))

/-- The second layer's messages summed per target node, the same operations at 64 features. -/
def aggregate2 (s : (⟨S50000x64, .f32⟩ : BufTy).Contents (Elt Ideal)) (src dst : (⟨S800000, .i32⟩ : BufTy).Contents (Elt Ideal))
    (ew : (⟨S800000, .f32⟩ : BufTy).Contents (Elt Ideal)) : (⟨S50000x64, .f32⟩ : BufTy).Contents (Elt Ideal) :=
  Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 dst) (mulf (Host.gather gather_S50000x64_S800000x1_S800000x64_1_0_n_n_0_1_164 s (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x64 ![0, 1] bcast_S800000x1_S800000x64_0_1 (broadcastInDim S800000x1 ![0] bcast_S800000_S800000x1_0 ew)))

/-- The first bias vector laid out as a 1×128 row. -/
def biasRow1 (b : (⟨S128, .f32⟩ : BufTy).Contents (Elt Ideal)) : (⟨S1x128, .f32⟩ : BufTy).Contents (Elt Ideal) :=
  shapeCast _ b shapeCasts_S128_S1x128

/-- The second bias vector laid out as a 1×64 row. -/
def biasRow2 (b : (⟨S64, .f32⟩ : BufTy).Contents (Elt Ideal)) : (⟨S1x64, .f32⟩ : BufTy).Contents (Elt Ideal) :=
  shapeCast _ b shapeCasts_S64_S1x64

/-- The first layer's output (the hidden features). -/
def hiddenLayer (x : S50000x256.Idx → Elt Ideal .f32) (e : (⟨S2x800000, .i32⟩ : BufTy).Contents (Elt Ideal))
    (ew : (⟨S800000, .f32⟩ : BufTy).Contents (Elt Ideal)) (w1 : S256x128.Idx → Elt Ideal .f32)
    (b1 : (⟨S128, .f32⟩ : BufTy).Contents (Elt Ideal)) : S50000x128.Idx → Elt Ideal .f32 :=
  biasClamp1 (aggregate1 (product1 x w1) (sources e) (targets e) ew) (biasRow1 b1)

/-- The network's output. -/
def output (x : S50000x256.Idx → Elt Ideal .f32) (e : (⟨S2x800000, .i32⟩ : BufTy).Contents (Elt Ideal))
    (ew : (⟨S800000, .f32⟩ : BufTy).Contents (Elt Ideal)) (w1 : S256x128.Idx → Elt Ideal .f32)
    (b1 : (⟨S128, .f32⟩ : BufTy).Contents (Elt Ideal)) (w2 : S128x64.Idx → Elt Ideal .f32)
    (b2 : (⟨S64, .f32⟩ : BufTy).Contents (Elt Ideal)) : S50000x64.Idx → Elt Ideal .f32 :=
  biasClamp2 (aggregate2 (product2 (hiddenLayer x e ew w1 b1) w2) (sources e) (targets e) ew) (biasRow2 b2)

end Cert.KernelIdeal.Network

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.Bodies.lean ====
/-
  The four kernel bodies of the two graph-convolution layers, each read at one entry of its output block, at exact
  arithmetic (floats are extended reals, a change of float format is the identity).

  A projection body multiplies a block of rows by the whole weight matrix: entry (p, q) of its block is the sum over the
  contracted axis of (row p of the block) · (column q of the weights); rounding the factors to bf16 first changes nothing
  at exact arithmetic. A bias body adds the bias row to every row of its block and clamps below at zero: entry (p, q) is
  max (block (p, q) + bias (0, q)) 0.
-/
import proofs.«165601_j27754078666886_2_alg».proof.Proof.Gen.KernelIdeal.Skeleton
import proofs.«165601_j27754078666886_2_alg».proof.Proof.LibMatmulIdx
import proofs.«165601_j27754078666886_2_alg».proof.Proof.LibRowOps
import Idealize.ShloMosaic.Lib.ValueIdx
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-- First projection, entry (p, q) of a block of 2000 rows: Σ_k x[p, k] · w[k, q] over the 256 input features. -/
theorem project1_apply (x : Vec Ideal S2000x256 .f32) (w : Vec Ideal S256x128 .f32) (p : Fin 2000) (q : Fin 128) :
    k0_pay1 (F := Ideal) x w (ix2 p q) = ∑ k : Fin 256, x (ix2 p k) * w (ix2 k q) := by
  unfold k0_pay1
  exact LibMatmulIdx.matmul2_apply (M := 2000) (K := 256) (N := 128) dot_S2000x256_S256x128_S2000x128_1_0_0_1_n_n rfl rfl
    (fun j k => by
      unfold DotDims.lhsIdx
      rw [dif_neg (show ¬(0 : Fin S2000x256.rank) ∈ dot_S2000x256_S256x128_S2000x128_1_0_0_1_n_n.lhsBatch by decide),
        dif_pos (show (0 : Fin S2000x256.rank) ∈ dot_S2000x256_S256x128_S2000x128_1_0_0_1_n_n.lhsNonContracting by decide)]
      rfl)
    (fun j k => dot_S2000x256_S256x128_S2000x128_1_0_0_1_n_n.lhsIdx_val_of_single rfl j k)
    (fun j k => dot_S2000x256_S256x128_S2000x128_1_0_0_1_n_n.rhsIdx_val_of_single rfl j k)
    (fun j k => by
      unfold DotDims.rhsIdx
      rw [dif_neg (show ¬(1 : Fin S256x128.rank) ∈ dot_S2000x256_S256x128_S2000x128_1_0_0_1_n_n.rhsBatch by decide),
        dif_pos (show (1 : Fin S256x128.rank) ∈ dot_S2000x256_S256x128_S2000x128_1_0_0_1_n_n.rhsNonContracting by decide)]
      rfl)
    none _ _ (ix2 p q)

/-- Second projection, entry (p, q) of a block of 2000 rows: Σ_k h[p, k] · w[k, q] over the 128 hidden features. -/
theorem project2_apply (h : Vec Ideal S2000x128 .f32) (w : Vec Ideal S128x64 .f32) (p : Fin 2000) (q : Fin 64) :
    k2_pay1 (F := Ideal) h w (ix2 p q) = ∑ k : Fin 128, h (ix2 p k) * w (ix2 k q) := by
  unfold k2_pay1
  rw [shapeCast_self]
  exact LibMatmulIdx.matmul2_apply (M := 2000) (K := 128) (N := 64) dot_S2000x128_S128x64_S2000x64_1_0_0_1_n_n rfl rfl
    (fun j k => by
      unfold DotDims.lhsIdx
      rw [dif_neg (show ¬(0 : Fin S2000x128.rank) ∈ dot_S2000x128_S128x64_S2000x64_1_0_0_1_n_n.lhsBatch by decide),
        dif_pos (show (0 : Fin S2000x128.rank) ∈ dot_S2000x128_S128x64_S2000x64_1_0_0_1_n_n.lhsNonContracting by decide)]
      rfl)
    (fun j k => dot_S2000x128_S128x64_S2000x64_1_0_0_1_n_n.lhsIdx_val_of_single rfl j k)
    (fun j k => dot_S2000x128_S128x64_S2000x64_1_0_0_1_n_n.rhsIdx_val_of_single rfl j k)
    (fun j k => by
      unfold DotDims.rhsIdx
      rw [dif_neg (show ¬(1 : Fin S128x64.rank) ∈ dot_S2000x128_S128x64_S2000x64_1_0_0_1_n_n.rhsBatch by decide),
        dif_pos (show (1 : Fin S128x64.rank) ∈ dot_S2000x128_S128x64_S2000x64_1_0_0_1_n_n.rhsNonContracting by decide)]
      rfl)
    none _ _ (ix2 p q)

/-- First bias-and-clamp, entry (p, q): max (a[p, q] + b[0, q]) 0, the zero being the f32 word of +0. -/
theorem biasClamp1_apply (a : Vec Ideal S2000x128 .f32) (b : Vec Ideal S1x128 .f32) (p : Fin 2000) (q : Fin 128) :
    k1_pay1 (F := Ideal) a b (ix2 p q) = max (a (ix2 p q) + b (ix2 (0 : Fin 1) q)) (Ideal.ofBits .f32 0x00000000#32) := by
  unfold k1_pay1
  rw [maximumf_apply, addf_apply, broadcast_apply, shapeCast_self, shapeCast_self]
  rw [LibRowOps.broadcastTo_row_apply (a := 2000) (b := 128) b broadcasts_S1x128_S2000x128 p q]
  rfl

/-- Second bias-and-clamp, entry (p, q): max (a[p, q] + b[0, q]) 0. -/
theorem biasClamp2_apply (a : Vec Ideal S2000x64 .f32) (b : Vec Ideal S1x64 .f32) (p : Fin 2000) (q : Fin 64) :
    k3_pay1 (F := Ideal) a b (ix2 p q) = max (a (ix2 p q) + b (ix2 (0 : Fin 1) q)) (Ideal.ofBits .f32 0x00000000#32) := by
  unfold k3_pay1
  rw [maximumf_apply, addf_apply, broadcast_apply, shapeCast_self, shapeCast_self]
  rw [LibRowOps.broadcastTo_row_apply (a := 2000) (b := 64) b broadcasts_S1x64_S2000x64 p q]
  rfl

end Cert.KernelIdeal.Bodies

end
-- ==== Proof.Projection1.lean ====
/-
  The first projection as a whole array. The pallas call runs the projection body at 25 grid points; point t reads rows
  2000·t … 2000·t + 1999 of the node features and the whole weight matrix, and writes rows 2000·t … 2000·t + 1999 of the
  support matrix. The 25 row blocks tile the 50000 rows, so afterwards the support matrix is the full product:
  entry (r, q) = Σ_k x[r, k] · w[k, q]. Stated for any contents of the buffers at the call's entry.
-/
import proofs.«165601_j27754078666886_2_alg».proof.Proof.Gen.KernelIdeal.Frame
import proofs.«165601_j27754078666886_2_alg».proof.Proof.Bodies
import proofs.«165601_j27754078666886_2_alg».proof.Proof.Network
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Projection1

open Cert.KernelIdeal Cert.KernelIdeal.Gen Cert.KernelIdeal.Network

variable (V : (c : Dev nD) → (b : Ref sig .tc) → Buf (Elt Ideal) ((c : Thread nD τ).loc b))

theorem zeroOffsets : (![0, 0] : Fin 2 → Nat) = fun _ => 0 := funext fun a => by fin_cases a <;> rfl

/-- Where each window's block sits at grid point t: row block t of the features and of the result, the whole weights. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (2000·t + p, k) of the features. -/
theorem featureBlock0 (c : Dev nD) (t : Fin cfg0.N) (p : Fin 2000) (k : Fin 256) (r : Fin 50000) (hr : r.val = t.val * 2000 + p.val) :
    (iblk0 V c 0 t : Vec Ideal S2000x256 .f32) (ix2 p k) = (V c main_arg0 : S50000x256.Idx → Elt Ideal .f32) (ix2 r k) := by
  obtain ⟨e0, e1, -⟩ := blockIndex0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The weight block at any point is the whole weight matrix. -/
theorem weightBlock0 (c : Dev nD) (t : Fin cfg0.N) (k : Fin 256) (q : Fin 128) :
    (iblk0 V c 1 t : Vec Ideal S256x128 .f32) (ix2 k q) = (V c main_arg3 : S256x128.Idx → Elt Ideal .f32) (ix2 k q) := by
  obtain ⟨-, -, e0, e1, -⟩ := blockIndex0 t
  unfold iblk0
  rw [View.read_apply]
  show V c main_arg3 _ = V c main_arg3 _
  refine congrArg (V c main_arg3) ?_
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- What point t writes back is block t of the full product. -/
theorem flushed0 (c : Dev nD) (t : Fin cfg0.N) :
    (dat0 V c).flushed 2 t = ((cfg0.win 2).blk t).view.read (Elt Ideal) (product1 (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  obtain ⟨-, -, -, -, e0, e1⟩ := blockIndex0 t
  funext j
  obtain ⟨p, q, rfl⟩ : ∃ (p : Fin 2000) (q : Fin 128), j = ix2 p q := ⟨j 0, j 1, eq_ix2 j⟩
  have hr : t.val * 2000 + p.val < 50000 := by
    have := t.isLt; have hN : cfg0.N = 25 := N_0; have := p.isLt; omega
  show k0_pay1 (iblk0 V c 0 t) (iblk0 V c 1 t) (ix2 p q) = product1 (V c main_arg0) (V c main_arg3) (((cfg0.win 2).blk t).view.emb (ix2 p q))
  have hemb : ((cfg0.win 2).blk t).view.emb (ix2 p q) = (ix2 (⟨t.val * 2000 + p.val, hr⟩ : Fin 50000) q : S50000x128.Idx) := by
    funext a
    apply Fin.ext
    match a with
    | ⟨0, _⟩ => show win0_2.index t (0 : Fin 2) * 2000 + 1 * p.val = t.val * 2000 + p.val; rw [e0]; omega
    | ⟨1, _⟩ => show win0_2.index t (1 : Fin 2) * 128 + 1 * q.val = q.val; rw [e1]; omega
  rw [hemb]
  refine (Bodies.project1_apply _ _ p q).trans ?_
  unfold product1
  refine Finset.sum_congr rfl fun k _ => ?_
  rw [featureBlock0 V c t p k ⟨t.val * 2000 + p.val, hr⟩ rfl, weightBlock0 V c t k q]

/-- An index of the support matrix lies in point t's block iff its row is in rows 2000·t … 2000·t + 1999. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- After the call the support matrix is the full product of the entry contents of the features and the weights. -/
theorem support1 (c : Dev nD) : (dat0 V c).arrAt 2 cfg0.N = product1 (V c main_arg0) (V c main_arg3) :=
  (dat0 V c).arrAt_eq_of_cover 2 (product1 (V c main_arg0) (V c main_arg3)) (fun t _ => flushed0 V c t) fun i => by
    have hi0 : (i 0).val < 50000 := (i 0).isLt
    have hi1 : (i 1).val < 128 := (i 1).isLt
    have hN : cfg0.N = 25 := N_0
    refine ⟨⟨(i 0).val / 2000, by omega⟩, flush0_2 _, ?_⟩
    rw [mem_block0]
    obtain ⟨-, -, -, -, e0, e1⟩ := blockIndex0 ⟨(i 0).val / 2000, by omega⟩
    intro a
    match a with
    | ⟨0, _⟩ => show win0_2.index _ (0 : Fin 2) * 2000 ≤ (i 0).val ∧ (i 0).val < win0_2.index _ (0 : Fin 2) * 2000 + 2000; rw [e0]; show (i 0).val / 2000 * 2000 ≤ _ ∧ _ < (i 0).val / 2000 * 2000 + 2000; omega
    | ⟨1, _⟩ => show win0_2.index _ (1 : Fin 2) * 128 ≤ (i 1).val ∧ (i 1).val < win0_2.index _ (1 : Fin 2) * 128 + 128; rw [e1]; omega

end Cert.KernelIdeal.Projection1

end
-- ==== Proof.Projection2.lean ====
/-
  The second projection as a whole array. Point t of its 25 grid points reads rows 2000·t … 2000·t + 1999 of the hidden
  features (the first layer's output) and the whole second weight matrix, and writes the same rows of the second support
  matrix; the row blocks tile the 50000 rows, so afterwards entry (r, q) = Σ_k h[r, k] · w[k, q] over the 128 hidden
  features. Stated for any contents of the buffers at the call's entry.
-/
import proofs.«165601_j27754078666886_2_alg».proof.Proof.Gen.KernelIdeal.Frame
import proofs.«165601_j27754078666886_2_alg».proof.Proof.Bodies
import proofs.«165601_j27754078666886_2_alg».proof.Proof.Network
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Projection2

open Cert.KernelIdeal Cert.KernelIdeal.Gen Cert.KernelIdeal.Network

variable (V : (c : Dev nD) → (b : Ref sig .tc) → Buf (Elt Ideal) ((c : Thread nD τ).loc b))

theorem zeroOffsets : (![0, 0] : Fin 2 → Nat) = fun _ => 0 := funext fun a => by fin_cases a <;> rfl

/-- Where each window's block sits at grid point t: row block t of the hidden features and of the result, the whole weights. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the hidden-feature block at point t is entry (2000·t + p, k) of the hidden features. -/
theorem featureBlock2 (c : Dev nD) (t : Fin cfg2.N) (p : Fin 2000) (k : Fin 128) (r : Fin 50000) (hr : r.val = t.val * 2000 + p.val) :
    (iblk2 V c 0 t : Vec Ideal S2000x128 .f32) (ix2 p k) = (V c main_v19 : S50000x128.Idx → Elt Ideal .f32) (ix2 r k) := by
  obtain ⟨e0, e1, -⟩ := blockIndex2 t
  unfold iblk2
  rw [View.read_apply]
  show V c main_v19 _ = V c main_v19 _
  refine congrArg (V c main_v19) ?_
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight block at any point is the whole weight matrix. -/
theorem weightBlock2 (c : Dev nD) (t : Fin cfg2.N) (k : Fin 128) (q : Fin 64) :
    (iblk2 V c 1 t : Vec Ideal S128x64 .f32) (ix2 k q) = (V c main_arg5 : S128x64.Idx → Elt Ideal .f32) (ix2 k q) := by
  obtain ⟨-, -, e0, e1, -⟩ := blockIndex2 t
  unfold iblk2
  rw [View.read_apply]
  show V c main_arg5 _ = V c main_arg5 _
  refine congrArg (V c main_arg5) ?_
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- What point t writes back is block t of the full product. -/
theorem flushed2 (c : Dev nD) (t : Fin cfg2.N) :
    (dat2 V c).flushed 2 t = ((cfg2.win 2).blk t).view.read (Elt Ideal) (product2 (V c main_v19) (V c main_arg5)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x64) zeroOffsets]
  obtain ⟨-, -, -, -, e0, e1⟩ := blockIndex2 t
  funext j
  obtain ⟨p, q, rfl⟩ : ∃ (p : Fin 2000) (q : Fin 64), j = ix2 p q := ⟨j 0, j 1, eq_ix2 j⟩
  have hr : t.val * 2000 + p.val < 50000 := by
    have := t.isLt; have hN : cfg2.N = 25 := N_2; have := p.isLt; omega
  show k2_pay1 (iblk2 V c 0 t) (iblk2 V c 1 t) (ix2 p q) = product2 (V c main_v19) (V c main_arg5) (((cfg2.win 2).blk t).view.emb (ix2 p q))
  have hemb : ((cfg2.win 2).blk t).view.emb (ix2 p q) = (ix2 (⟨t.val * 2000 + p.val, hr⟩ : Fin 50000) q : S50000x64.Idx) := by
    funext a
    apply Fin.ext
    match a with
    | ⟨0, _⟩ => show win2_2.index t (0 : Fin 2) * 2000 + 1 * p.val = t.val * 2000 + p.val; rw [e0]; omega
    | ⟨1, _⟩ => show win2_2.index t (1 : Fin 2) * 64 + 1 * q.val = q.val; rw [e1]; omega
  rw [hemb]
  refine (Bodies.project2_apply _ _ p q).trans ?_
  unfold product2
  refine Finset.sum_congr rfl fun k _ => ?_
  rw [featureBlock2 V c t p k ⟨t.val * 2000 + p.val, hr⟩ rfl, weightBlock2 V c t k q]

/-- An index of the support matrix lies in point t's block iff its row is in rows 2000·t … 2000·t + 1999. -/
theorem mem_block2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v20).slice (win2_2.rect t)).set ↔ _
  rw [View.set_slice_whole, Rect.mem_set_unit]
  exact Iff.rfl

/-- After the call the second support matrix is the full product of the entry contents of the hidden features and the second weights. -/
theorem support2 (c : Dev nD) : (dat2 V c).arrAt 2 cfg2.N = product2 (V c main_v19) (V c main_arg5) :=
  (dat2 V c).arrAt_eq_of_cover 2 (product2 (V c main_v19) (V c main_arg5)) (fun t _ => flushed2 V c t) fun i => by
    have hi0 : (i 0).val < 50000 := (i 0).isLt
    have hi1 : (i 1).val < 64 := (i 1).isLt
    have hN : cfg2.N = 25 := N_2
    refine ⟨⟨(i 0).val / 2000, by omega⟩, flush2_2 _, ?_⟩
    rw [mem_block2]
    obtain ⟨-, -, -, -, e0, e1⟩ := blockIndex2 ⟨(i 0).val / 2000, by omega⟩
    intro a
    match a with
    | ⟨0, _⟩ => show win2_2.index _ (0 : Fin 2) * 2000 ≤ (i 0).val ∧ (i 0).val < win2_2.index _ (0 : Fin 2) * 2000 + 2000; rw [e0]; show (i 0).val / 2000 * 2000 ≤ _ ∧ _ < (i 0).val / 2000 * 2000 + 2000; omega
    | ⟨1, _⟩ => show win2_2.index _ (1 : Fin 2) * 64 ≤ (i 1).val ∧ (i 1).val < win2_2.index _ (1 : Fin 2) * 64 + 64; rw [e1]; omega

end Cert.KernelIdeal.Projection2

end
-- ==== Proof.BiasClamp1.lean ====
/-
  The first bias-and-clamp as a whole array. Point t of the 25 grid points reads rows 2000·t … 2000·t + 1999 of the
  aggregated messages and the bias row, and writes the same rows of the hidden features; the row blocks tile the 50000
  rows, so afterwards entry (r, q) = max (agg[r, q] + bias[0, q]) 0. Stated for any contents of the buffers at the
  call's entry.
-/
import proofs.«165601_j27754078666886_2_alg».proof.Proof.Gen.KernelIdeal.Frame
import proofs.«165601_j27754078666886_2_alg».proof.Proof.Bodies
import proofs.«165601_j27754078666886_2_alg».proof.Proof.Network
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BiasClamp1

open Cert.KernelIdeal Cert.KernelIdeal.Gen Cert.KernelIdeal.Network

variable (V : (c : Dev nD) → (b : Ref sig .tc) → Buf (Elt Ideal) ((c : Thread nD τ).loc b))

theorem zeroOffsets : (![0, 0] : Fin 2 → Nat) = fun _ => 0 := funext fun a => by fin_cases a <;> rfl

/-- Where each window's block sits at grid point t: row block t of the messages and of the result, the whole bias row. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the message block at point t is entry (2000·t + p, q) of the aggregated messages. -/
theorem messageBlock1 (c : Dev nD) (t : Fin cfg1.N) (p : Fin 2000) (q : Fin 128) (r : Fin 50000) (hr : r.val = t.val * 2000 + p.val) :
    (iblk1 V c 0 t : Vec Ideal S2000x128 .f32) (ix2 p q) = (V c main_v17 : S50000x128.Idx → Elt Ideal .f32) (ix2 r q) := by
  obtain ⟨e0, e1, -⟩ := blockIndex1 t
  unfold iblk1
  rw [View.read_apply]
  show V c main_v17 _ = V c main_v17 _
  refine congrArg (V c main_v17) ?_
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The bias block at any point is the whole bias row. -/
theorem biasBlock1 (c : Dev nD) (t : Fin cfg1.N) (z : Fin 1) (q : Fin 128) :
    (iblk1 V c 1 t : Vec Ideal S1x128 .f32) (ix2 z q) = (V c main_v18 : S1x128.Idx → Elt Ideal .f32) (ix2 z q) := by
  obtain ⟨-, -, e0, e1, -⟩ := blockIndex1 t
  unfold iblk1
  rw [View.read_apply]
  show V c main_v18 _ = V c main_v18 _
  refine congrArg (V c main_v18) ?_
  funext a
  apply Fin.ext
  match a with
  | ⟨0, _⟩ => show win1_1.index t (0 : Fin 2) * 1 + 1 * z.val = z.val; rw [e0]; omega
  | ⟨1, _⟩ => show win1_1.index t (1 : Fin 2) * 128 + 1 * q.val = q.val; rw [e1]; omega

/-- What point t writes back is block t of the biased, clamped matrix. -/
theorem flushed1 (c : Dev nD) (t : Fin cfg1.N) :
    (dat1 V c).flushed 2 t = ((cfg1.win 2).blk t).view.read (Elt Ideal) (biasClamp1 (V c main_v17) (V c main_v18)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  obtain ⟨-, -, -, -, e0, e1⟩ := blockIndex1 t
  funext j
  obtain ⟨p, q, rfl⟩ : ∃ (p : Fin 2000) (q : Fin 128), j = ix2 p q := ⟨j 0, j 1, eq_ix2 j⟩
  have hr : t.val * 2000 + p.val < 50000 := by
    have := t.isLt; have hN : cfg1.N = 25 := N_1; have := p.isLt; omega
  show k1_pay1 (iblk1 V c 0 t) (iblk1 V c 1 t) (ix2 p q) = biasClamp1 (V c main_v17) (V c main_v18) (((cfg1.win 2).blk t).view.emb (ix2 p q))
  have hemb : ((cfg1.win 2).blk t).view.emb (ix2 p q) = (ix2 (⟨t.val * 2000 + p.val, hr⟩ : Fin 50000) q : S50000x128.Idx) := by
    funext a
    apply Fin.ext
    match a with
    | ⟨0, _⟩ => show win1_2.index t (0 : Fin 2) * 2000 + 1 * p.val = t.val * 2000 + p.val; rw [e0]; omega
    | ⟨1, _⟩ => show win1_2.index t (1 : Fin 2) * 128 + 1 * q.val = q.val; rw [e1]; omega
  rw [hemb]
  refine (Bodies.biasClamp1_apply _ _ p q).trans ?_
  unfold biasClamp1
  rw [messageBlock1 V c t p q ⟨t.val * 2000 + p.val, hr⟩ rfl, biasBlock1 V c t 0 q]

/-- An index of the result lies in point t's block iff its row is in rows 2000·t … 2000·t + 1999. -/
theorem mem_block1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v19).slice (win1_2.rect t)).set ↔ _
  rw [View.set_slice_whole, Rect.mem_set_unit]
  exact Iff.rfl

/-- After the call the hidden features are the biased, clamped entry contents of the aggregated messages. -/
theorem hidden1 (c : Dev nD) : (dat1 V c).arrAt 2 cfg1.N = biasClamp1 (V c main_v17) (V c main_v18) :=
  (dat1 V c).arrAt_eq_of_cover 2 (biasClamp1 (V c main_v17) (V c main_v18)) (fun t _ => flushed1 V c t) fun i => by
    have hi0 : (i 0).val < 50000 := (i 0).isLt
    have hi1 : (i 1).val < 128 := (i 1).isLt
    have hN : cfg1.N = 25 := N_1
    refine ⟨⟨(i 0).val / 2000, by omega⟩, flush1_2 _, ?_⟩
    rw [mem_block1]
    obtain ⟨-, -, -, -, e0, e1⟩ := blockIndex1 ⟨(i 0).val / 2000, by omega⟩
    intro a
    match a with
    | ⟨0, _⟩ => show win1_2.index _ (0 : Fin 2) * 2000 ≤ (i 0).val ∧ (i 0).val < win1_2.index _ (0 : Fin 2) * 2000 + 2000; rw [e0]; show (i 0).val / 2000 * 2000 ≤ _ ∧ _ < (i 0).val / 2000 * 2000 + 2000; omega
    | ⟨1, _⟩ => show win1_2.index _ (1 : Fin 2) * 128 ≤ (i 1).val ∧ (i 1).val < win1_2.index _ (1 : Fin 2) * 128 + 128; rw [e1]; omega

end Cert.KernelIdeal.BiasClamp1

end
-- ==== Proof.BiasClamp2.lean ====
/-
  The second bias-and-clamp as a whole array. Point t of the 25 grid points reads rows 2000·t … 2000·t + 1999 of the
  second layer's aggregated messages and the second bias row, and writes the same rows of the result; the row blocks
  tile the 50000 rows, so afterwards entry (r, q) = max (agg[r, q] + bias[0, q]) 0 over the 64 output features. Stated
  for any contents of the buffers at the call's entry.
-/
import proofs.«165601_j27754078666886_2_alg».proof.Proof.Gen.KernelIdeal.Frame
import proofs.«165601_j27754078666886_2_alg».proof.Proof.Bodies
import proofs.«165601_j27754078666886_2_alg».proof.Proof.Network
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BiasClamp2

open Cert.KernelIdeal Cert.KernelIdeal.Gen Cert.KernelIdeal.Network

variable (V : (c : Dev nD) → (b : Ref sig .tc) → Buf (Elt Ideal) ((c : Thread nD τ).loc b))

theorem zeroOffsets : (![0, 0] : Fin 2 → Nat) = fun _ => 0 := funext fun a => by fin_cases a <;> rfl

/-- Where each window's block sits at grid point t: row block t of the messages and of the result, the whole bias row. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the message block at point t is entry (2000·t + p, q) of the aggregated messages. -/
theorem messageBlock3 (c : Dev nD) (t : Fin cfg3.N) (p : Fin 2000) (q : Fin 64) (r : Fin 50000) (hr : r.val = t.val * 2000 + p.val) :
    (iblk3 V c 0 t : Vec Ideal S2000x64 .f32) (ix2 p q) = (V c main_v33 : S50000x64.Idx → Elt Ideal .f32) (ix2 r q) := by
  obtain ⟨e0, e1, -⟩ := blockIndex3 t
  unfold iblk3
  rw [View.read_apply]
  show V c main_v33 _ = V c main_v33 _
  refine congrArg (V c main_v33) ?_
  funext a
  apply Fin.ext
  match a with
  | ⟨0, _⟩ => show win3_0.index t (0 : Fin 2) * 2000 + 1 * p.val = r.val; rw [e0, hr]; omega
  | ⟨1, _⟩ => show win3_0.index t (1 : Fin 2) * 64 + 1 * q.val = q.val; rw [e1]; omega

/-- The bias block at any point is the whole bias row. -/
theorem biasBlock3 (c : Dev nD) (t : Fin cfg3.N) (z : Fin 1) (q : Fin 64) :
    (iblk3 V c 1 t : Vec Ideal S1x64 .f32) (ix2 z q) = (V c main_v34 : S1x64.Idx → Elt Ideal .f32) (ix2 z q) := by
  obtain ⟨-, -, e0, e1, -⟩ := blockIndex3 t
  unfold iblk3
  rw [View.read_apply]
  show V c main_v34 _ = V c main_v34 _
  refine congrArg (V c main_v34) ?_
  funext a
  apply Fin.ext
  match a with
  | ⟨0, _⟩ => show win3_1.index t (0 : Fin 2) * 1 + 1 * z.val = z.val; rw [e0]; omega
  | ⟨1, _⟩ => show win3_1.index t (1 : Fin 2) * 64 + 1 * q.val = q.val; rw [e1]; omega

/-- What point t writes back is block t of the biased, clamped matrix. -/
theorem flushed3 (c : Dev nD) (t : Fin cfg3.N) :
    (dat3 V c).flushed 2 t = ((cfg3.win 2).blk t).view.read (Elt Ideal) (biasClamp2 (V c main_v33) (V c main_v34)) := by
  show (cfg3.win 2).cut (grid3.coords t) ((dat3 V c).after 2 t) = _
  rw [after3_2]
  unfold out3_2
  rw [View.canon_unit_zero zeroOffsets]
  simp only [View.ld_unit_zero (S := S2000x64) zeroOffsets, View.ld_unit_zero (S := S1x64) zeroOffsets]
  obtain ⟨-, -, -, -, e0, e1⟩ := blockIndex3 t
  funext j
  obtain ⟨p, q, rfl⟩ : ∃ (p : Fin 2000) (q : Fin 64), j = ix2 p q := ⟨j 0, j 1, eq_ix2 j⟩
  have hr : t.val * 2000 + p.val < 50000 := by
    have := t.isLt; have hN : cfg3.N = 25 := N_3; have := p.isLt; omega
  show k3_pay1 (iblk3 V c 0 t) (iblk3 V c 1 t) (ix2 p q) = biasClamp2 (V c main_v33) (V c main_v34) (((cfg3.win 2).blk t).view.emb (ix2 p q))
  have hemb : ((cfg3.win 2).blk t).view.emb (ix2 p q) = (ix2 (⟨t.val * 2000 + p.val, hr⟩ : Fin 50000) q : S50000x64.Idx) := by
    funext a
    apply Fin.ext
    match a with
    | ⟨0, _⟩ => show win3_2.index t (0 : Fin 2) * 2000 + 1 * p.val = t.val * 2000 + p.val; rw [e0]; omega
    | ⟨1, _⟩ => show win3_2.index t (1 : Fin 2) * 64 + 1 * q.val = q.val; rw [e1]; omega
  rw [hemb]
  refine (Bodies.biasClamp2_apply _ _ p q).trans ?_
  unfold biasClamp2
  rw [messageBlock3 V c t p q ⟨t.val * 2000 + p.val, hr⟩ rfl, biasBlock3 V c t 0 q]

/-- An index of the result lies in point t's block iff its row is in rows 2000·t … 2000·t + 1999. -/
theorem mem_block3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v35).slice (win3_2.rect t)).set ↔ _
  rw [View.set_slice_whole, Rect.mem_set_unit]
  exact Iff.rfl

/-- After the call the result is the biased, clamped entry contents of the second layer's aggregated messages. -/
theorem output2 (c : Dev nD) : (dat3 V c).arrAt 2 cfg3.N = biasClamp2 (V c main_v33) (V c main_v34) :=
  (dat3 V c).arrAt_eq_of_cover 2 (biasClamp2 (V c main_v33) (V c main_v34)) (fun t _ => flushed3 V c t) fun i => by
    have hi0 : (i 0).val < 50000 := (i 0).isLt
    have hi1 : (i 1).val < 64 := (i 1).isLt
    have hN : cfg3.N = 25 := N_3
    refine ⟨⟨(i 0).val / 2000, by omega⟩, flush3_2 _, ?_⟩
    rw [mem_block3]
    obtain ⟨-, -, -, -, e0, e1⟩ := blockIndex3 ⟨(i 0).val / 2000, by omega⟩
    intro a
    match a with
    | ⟨0, _⟩ => show win3_2.index _ (0 : Fin 2) * 2000 ≤ (i 0).val ∧ (i 0).val < win3_2.index _ (0 : Fin 2) * 2000 + 2000; rw [e0]; show (i 0).val / 2000 * 2000 ≤ _ ∧ _ < (i 0).val / 2000 * 2000 + 2000; omega
    | ⟨1, _⟩ => show win3_2.index _ (1 : Fin 2) * 64 ≤ (i 1).val ∧ (i 1).val < win3_2.index _ (1 : Fin 2) * 64 + 64; rw [e1]; omega

end Cert.KernelIdeal.BiasClamp2

end
-- ==== Proof.Boundaries.lean ====
/-
  The contents of the idealized kernel program's buffers at each boundary between its segments, as functions of the
  launch memory. The fold runs: the edge list split into sources and targets; the first support matrix (a product); the
  first layer's aggregated messages and bias row (host lines over the support matrix); the hidden features (bias and
  clamp); the second support matrix (a product of the hidden features); the second layer's aggregated messages and bias
  row; the result. A buffer no segment writes keeps what it held, so the sources, the targets, the edge weights and the
  later layers' weights and biases reach the segment that reads them unchanged.
-/
import proofs.«165601_j27754078666886_2_alg».proof.Proof.Gen.KernelIdeal.Frame
import proofs.«165601_j27754078666886_2_alg».proof.Proof.Network
import proofs.«165601_j27754078666886_2_alg».proof.Proof.Projection1
import proofs.«165601_j27754078666886_2_alg».proof.Proof.Projection2
import proofs.«165601_j27754078666886_2_alg».proof.Proof.BiasClamp1
import proofs.«165601_j27754078666886_2_alg».proof.Proof.BiasClamp2
import Idealize.ShloMosaic.Lib.StableHlo.Run

noncomputable section

open Idealize.ShloMosaic Idealize.ShloMosaic.TcCoe Idealize.SL.Sem Idealize.ShloMosaic.StableHlo

namespace Cert.KernelIdeal.Boundaries

open Cert.KernelIdeal Cert.KernelIdeal.Gen Cert.KernelIdeal.Network

/-! ## The three stretches of host lines, from any contents of the buffers -/

section HostLines

variable (Wv : Valuation τ sig (Elt Ideal))

/-- The first stretch leaves the edge list's row 0 in the sources buffer. -/
theorem lines0_sources : StableHlo.after hostOps0 Wv (Proc.devRef .tc main_v1) = sources (Wv (Proc.devRef .tc main_arg1)) := by
  after_results
  rfl

/-- The first stretch leaves the edge list's row 1 in the targets buffer. -/
theorem lines0_targets : StableHlo.after hostOps0 Wv (Proc.devRef .tc main_v3) = targets (Wv (Proc.devRef .tc main_arg1)) := by
  after_results
  rfl

theorem lines0_keeps_arg0 : StableHlo.after hostOps0 Wv (Proc.devRef .tc main_arg0) = Wv (Proc.devRef .tc main_arg0) := by
  after_results

theorem lines0_keeps_arg2 : StableHlo.after hostOps0 Wv (Proc.devRef .tc main_arg2) = Wv (Proc.devRef .tc main_arg2) := by
  after_results

theorem lines0_keeps_arg3 : StableHlo.after hostOps0 Wv (Proc.devRef .tc main_arg3) = Wv (Proc.devRef .tc main_arg3) := by
  after_results

theorem lines0_keeps_arg4 : StableHlo.after hostOps0 Wv (Proc.devRef .tc main_arg4) = Wv (Proc.devRef .tc main_arg4) := by
  after_results

theorem lines0_keeps_arg5 : StableHlo.after hostOps0 Wv (Proc.devRef .tc main_arg5) = Wv (Proc.devRef .tc main_arg5) := by
  after_results

theorem lines0_keeps_arg6 : StableHlo.after hostOps0 Wv (Proc.devRef .tc main_arg6) = Wv (Proc.devRef .tc main_arg6) := by
  after_results

/-- The second stretch leaves the first layer's aggregated messages: the gather, scale and segment sum of the support
    matrix it finds, at the sources, targets and edge weights it finds. -/
theorem lines1_messages : StableHlo.after hostOps1 Wv (Proc.devRef .tc main_v17)
    = aggregate1 (Wv (Proc.devRef .tc main_v4)) (Wv (Proc.devRef .tc main_v1)) (Wv (Proc.devRef .tc main_v3)) (Wv (Proc.devRef .tc main_arg2)) := by
  after_results
  rfl

/-- The second stretch leaves the first bias vector as a row. -/
theorem lines1_biasRow : StableHlo.after hostOps1 Wv (Proc.devRef .tc main_v18) = biasRow1 (Wv (Proc.devRef .tc main_arg4)) := by
  after_results
  rfl

theorem lines1_keeps_v1 : StableHlo.after hostOps1 Wv (Proc.devRef .tc main_v1) = Wv (Proc.devRef .tc main_v1) := by
  after_results

theorem lines1_keeps_v3 : StableHlo.after hostOps1 Wv (Proc.devRef .tc main_v3) = Wv (Proc.devRef .tc main_v3) := by
  after_results

theorem lines1_keeps_arg2 : StableHlo.after hostOps1 Wv (Proc.devRef .tc main_arg2) = Wv (Proc.devRef .tc main_arg2) := by
  after_results

theorem lines1_keeps_arg5 : StableHlo.after hostOps1 Wv (Proc.devRef .tc main_arg5) = Wv (Proc.devRef .tc main_arg5) := by
  after_results

theorem lines1_keeps_arg6 : StableHlo.after hostOps1 Wv (Proc.devRef .tc main_arg6) = Wv (Proc.devRef .tc main_arg6) := by
  after_results

/-- The third stretch leaves the second layer's aggregated messages. -/
theorem lines3_messages : StableHlo.after hostOps3 Wv (Proc.devRef .tc main_v33)
    = aggregate2 (Wv (Proc.devRef .tc main_v20)) (Wv (Proc.devRef .tc main_v1)) (Wv (Proc.devRef .tc main_v3)) (Wv (Proc.devRef .tc main_arg2)) := by
  after_results
  rfl

/-- The third stretch leaves the second bias vector as a row. -/
theorem lines3_biasRow : StableHlo.after hostOps3 Wv (Proc.devRef .tc main_v34) = biasRow2 (Wv (Proc.devRef .tc main_arg6)) := by
  after_results
  rfl

end HostLines

variable (m : (ℓ : Loc nD τ sig) → Buf (Elt Ideal) ℓ) (ρ : Dev nD → PrngReg) (c : Dev nD)

/-! ## After the first host lines: the edge list split, everything else as launched -/

theorem sources1 : W1 m ρ c (Proc.devRef .tc main_v1) = sources (m ((c : Thread nD τ).loc main_arg1)) := lines0_sources (W0 m ρ c)

theorem targets1 : W1 m ρ c (Proc.devRef .tc main_v3) = targets (m ((c : Thread nD τ).loc main_arg1)) := lines0_targets (W0 m ρ c)

theorem arg0_1 : W1 m ρ c (Proc.devRef .tc main_arg0) = (m ((c : Thread nD τ).loc main_arg0)) := lines0_keeps_arg0 (W0 m ρ c)

theorem arg2_1 : W1 m ρ c (Proc.devRef .tc main_arg2) = (m ((c : Thread nD τ).loc main_arg2)) := lines0_keeps_arg2 (W0 m ρ c)

theorem arg3_1 : W1 m ρ c (Proc.devRef .tc main_arg3) = (m ((c : Thread nD τ).loc main_arg3)) := lines0_keeps_arg3 (W0 m ρ c)

theorem arg4_1 : W1 m ρ c (Proc.devRef .tc main_arg4) = (m ((c : Thread nD τ).loc main_arg4)) := lines0_keeps_arg4 (W0 m ρ c)

theorem arg5_1 : W1 m ρ c (Proc.devRef .tc main_arg5) = (m ((c : Thread nD τ).loc main_arg5)) := lines0_keeps_arg5 (W0 m ρ c)

theorem arg6_1 : W1 m ρ c (Proc.devRef .tc main_arg6) = (m ((c : Thread nD τ).loc main_arg6)) := lines0_keeps_arg6 (W0 m ρ c)

/-! ## After the first projection: the support matrix is the product x · W₁ -/

theorem support_2 : W2 m ρ c (Proc.devRef .tc main_v4) = product1 (m ((c : Thread nD τ).loc main_arg0)) (m ((c : Thread nD τ).loc main_arg3)) := by
  refine (W2_arr m ρ c 2).trans ((Projection1.support1 (V1 m ρ) c).trans ?_)
  rw [show V1 m ρ c main_arg0 = (m ((c : Thread nD τ).loc main_arg0)) from arg0_1 m ρ c, show V1 m ρ c main_arg3 = (m ((c : Thread nD τ).loc main_arg3)) from arg3_1 m ρ c]

theorem v1_2 : W2 m ρ c (Proc.devRef .tc main_v1) = (sources (m ((c : Thread nD τ).loc main_arg1))) :=
  (W2_of_ne m ρ c main_v1 (by decide)).trans (sources1 m ρ c)

theorem v3_2 : W2 m ρ c (Proc.devRef .tc main_v3) = (targets (m ((c : Thread nD τ).loc main_arg1))) :=
  (W2_of_ne m ρ c main_v3 (by decide)).trans (targets1 m ρ c)

theorem arg2_2 : W2 m ρ c (Proc.devRef .tc main_arg2) = (m ((c : Thread nD τ).loc main_arg2)) :=
  (W2_of_ne m ρ c main_arg2 (by decide)).trans (arg2_1 m ρ c)

theorem arg4_2 : W2 m ρ c (Proc.devRef .tc main_arg4) = (m ((c : Thread nD τ).loc main_arg4)) :=
  (W2_of_ne m ρ c main_arg4 (by decide)).trans (arg4_1 m ρ c)

theorem arg5_2 : W2 m ρ c (Proc.devRef .tc main_arg5) = (m ((c : Thread nD τ).loc main_arg5)) :=
  (W2_of_ne m ρ c main_arg5 (by decide)).trans (arg5_1 m ρ c)

theorem arg6_2 : W2 m ρ c (Proc.devRef .tc main_arg6) = (m ((c : Thread nD τ).loc main_arg6)) :=
  (W2_of_ne m ρ c main_arg6 (by decide)).trans (arg6_1 m ρ c)

/-! ## After the second host lines: the first layer's aggregated messages and its bias row -/

theorem messages_3 : W3 m ρ c (Proc.devRef .tc main_v17) = aggregate1 (product1 (m ((c : Thread nD τ).loc main_arg0)) (m ((c : Thread nD τ).loc main_arg3))) (sources (m ((c : Thread nD τ).loc main_arg1))) (targets (m ((c : Thread nD τ).loc main_arg1))) (m ((c : Thread nD τ).loc main_arg2)) := by
  refine (lines1_messages (W2 m ρ c)).trans ?_
  rw [support_2 m ρ c, v1_2 m ρ c, v3_2 m ρ c, arg2_2 m ρ c]

theorem biasRow_3 : W3 m ρ c (Proc.devRef .tc main_v18) = biasRow1 (m ((c : Thread nD τ).loc main_arg4)) := by
  refine (lines1_biasRow (W2 m ρ c)).trans ?_
  rw [arg4_2 m ρ c]

theorem v1_3 : W3 m ρ c (Proc.devRef .tc main_v1) = (sources (m ((c : Thread nD τ).loc main_arg1))) :=
  (lines1_keeps_v1 (W2 m ρ c)).trans (v1_2 m ρ c)

theorem v3_3 : W3 m ρ c (Proc.devRef .tc main_v3) = (targets (m ((c : Thread nD τ).loc main_arg1))) :=
  (lines1_keeps_v3 (W2 m ρ c)).trans (v3_2 m ρ c)

theorem arg2_3 : W3 m ρ c (Proc.devRef .tc main_arg2) = (m ((c : Thread nD τ).loc main_arg2)) :=
  (lines1_keeps_arg2 (W2 m ρ c)).trans (arg2_2 m ρ c)

theorem arg5_3 : W3 m ρ c (Proc.devRef .tc main_arg5) = (m ((c : Thread nD τ).loc main_arg5)) :=
  (lines1_keeps_arg5 (W2 m ρ c)).trans (arg5_2 m ρ c)

theorem arg6_3 : W3 m ρ c (Proc.devRef .tc main_arg6) = (m ((c : Thread nD τ).loc main_arg6)) :=
  (lines1_keeps_arg6 (W2 m ρ c)).trans (arg6_2 m ρ c)

/-! ## After the first bias-and-clamp: the hidden features -/

theorem hidden_4 : W4 m ρ c (Proc.devRef .tc main_v19) = hiddenLayer (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ((BiasClamp1.hidden1 (V3 m ρ) c).trans ?_)
  rw [show V3 m ρ c main_v17 = _ from messages_3 m ρ c, show V3 m ρ c main_v18 = _ from biasRow_3 m ρ c]
  rfl

theorem v1_4 : W4 m ρ c (Proc.devRef .tc main_v1) = (sources (m ((c : Thread nD τ).loc main_arg1))) :=
  (W4_of_ne m ρ c main_v1 (by decide)).trans (v1_3 m ρ c)

theorem v3_4 : W4 m ρ c (Proc.devRef .tc main_v3) = (targets (m ((c : Thread nD τ).loc main_arg1))) :=
  (W4_of_ne m ρ c main_v3 (by decide)).trans (v3_3 m ρ c)

theorem arg2_4 : W4 m ρ c (Proc.devRef .tc main_arg2) = (m ((c : Thread nD τ).loc main_arg2)) :=
  (W4_of_ne m ρ c main_arg2 (by decide)).trans (arg2_3 m ρ c)

theorem arg5_4 : W4 m ρ c (Proc.devRef .tc main_arg5) = (m ((c : Thread nD τ).loc main_arg5)) :=
  (W4_of_ne m ρ c main_arg5 (by decide)).trans (arg5_3 m ρ c)

theorem arg6_4 : W4 m ρ c (Proc.devRef .tc main_arg6) = (m ((c : Thread nD τ).loc main_arg6)) :=
  (W4_of_ne m ρ c main_arg6 (by decide)).trans (arg6_3 m ρ c)

/-! ## After the second projection: the second support matrix is the product h · W₂ -/

theorem support_5 : W5 m ρ c (Proc.devRef .tc main_v20) = product2 (hiddenLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W5_arr m ρ c 2).trans ((Projection2.support2 (V4 m ρ) c).trans ?_)
  rw [show V4 m ρ c main_v19 = _ from hidden_4 m ρ c, show V4 m ρ c main_arg5 = _ from arg5_4 m ρ c]

theorem v1_5 : W5 m ρ c (Proc.devRef .tc main_v1) = (sources (m ((c : Thread nD τ).loc main_arg1))) :=
  (W5_of_ne m ρ c main_v1 (by decide)).trans (v1_4 m ρ c)

theorem v3_5 : W5 m ρ c (Proc.devRef .tc main_v3) = (targets (m ((c : Thread nD τ).loc main_arg1))) :=
  (W5_of_ne m ρ c main_v3 (by decide)).trans (v3_4 m ρ c)

theorem arg2_5 : W5 m ρ c (Proc.devRef .tc main_arg2) = (m ((c : Thread nD τ).loc main_arg2)) :=
  (W5_of_ne m ρ c main_arg2 (by decide)).trans (arg2_4 m ρ c)

theorem arg6_5 : W5 m ρ c (Proc.devRef .tc main_arg6) = (m ((c : Thread nD τ).loc main_arg6)) :=
  (W5_of_ne m ρ c main_arg6 (by decide)).trans (arg6_4 m ρ c)

/-! ## After the third host lines: the second layer's aggregated messages and its bias row -/

theorem messages_6 : W6 m ρ c (Proc.devRef .tc main_v33) = aggregate2 (product2 (hiddenLayer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (sources (m ((c : Thread nD τ).loc main_arg1))) (targets (m ((c : Thread nD τ).loc main_arg1))) (m ((c : Thread nD τ).loc main_arg2)) := by
  refine (lines3_messages (W5 m ρ c)).trans ?_
  rw [support_5 m ρ c, v1_5 m ρ c, v3_5 m ρ c, arg2_5 m ρ c]

theorem biasRow_6 : W6 m ρ c (Proc.devRef .tc main_v34) = biasRow2 (m ((c : Thread nD τ).loc main_arg6)) := by
  refine (lines3_biasRow (W5 m ρ c)).trans ?_
  rw [arg6_5 m ρ c]

/-! ## After the second bias-and-clamp: the result -/

/-- The result buffer at the last boundary is the network's output of the seven launch arguments. -/
theorem result : W7 m ρ c (Proc.devRef .tc main_v35) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 2).trans ((BiasClamp2.output2 (V6 m ρ) c).trans ?_)
  rw [show V6 m ρ c main_v33 = _ from messages_6 m ρ c, show V6 m ρ c main_v34 = _ from biasRow_6 m ρ c]
  rfl

end Cert.KernelIdeal.Boundaries

end
-- ==== Proof.ReferenceStages.lean ====
/-
  The reference program computes the same network. Its stages, read one operation at a time: a host product is the
  sum over the contracted axis, entry by entry (the same sum the kernel's blocks add up to); its gather, scale and
  segment sum are literally the operations the network's aggregation is spelt with; and adding the bias broadcast first
  to a row and then down the rows, followed by the maximum with the zero matrix, is entry by entry
  max (agg[r, q] + b[q]) 0 — the bias vector read at q is the bias row read at (0, q).
-/
import proofs.«165601_j27754078666886_2_alg».proof.Proof.Gen.ReferenceIdeal.Read
import proofs.«165601_j27754078666886_2_alg».proof.Proof.Network
import proofs.«165601_j27754078666886_2_alg».proof.Proof.LibRowOps
import Idealize.ShloMosaic.Lib.ValueIdx
import Idealize.ShloMosaic.Lib.Pipeline.Value

noncomputable section

namespace Cert.ReferenceIdeal.Stages

open Idealize.ShloMosaic Idealize.ShloMosaic.ValueIdx
open Cert.ReferenceIdeal Cert.ReferenceIdeal.Read Cert.KernelIdeal.Network

/-- The first host product is the entrywise sum Σ_k x[r, k] · W₁[k, q]. -/
theorem support1 (x0 : (⟨S50000x256, .f32⟩ : BufTy).Contents (Elt Ideal)) (x3 : (⟨S256x128, .f32⟩ : BufTy).Contents (Elt Ideal)) :
    val_main_v4 (F := Ideal) x0 x3 = product1 x0 x3 := by
  funext i
  rw [val_main_v4_apply]
  unfold product1
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The first layer's gather, scale and segment sum are the network's aggregation of the support matrix. -/
theorem messages1 (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) :
    val_main_v17 (F := Ideal) x0 x1 x2 x3 = aggregate1 (val_main_v4 (F := Ideal) x0 x3) (sources x1) (targets x1) x2 := rfl

/-- The first layer's bias and relu, entry by entry. -/
theorem hidden1 (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) (x4 : (⟨S128, .f32⟩ : BufTy).Contents (Elt Ideal)) :
    val_main_v21 (F := Ideal) x0 x1 x2 x3 x4 = biasClamp1 (val_main_v17 (F := Ideal) x0 x1 x2 x3) (biasRow1 x4) := by
  funext i
  obtain ⟨r, q, rfl⟩ : ∃ (r : Fin 50000) (q : Fin 128), i = ix2 r q := ⟨i 0, i 1, eq_ix2 i⟩
  rw [val_main_v21_apply, val_main_v20_apply, val_main_v19_apply, val_main_v18_apply, val_main_call0_v0_apply, val_main_call0_cst_apply]
  have e : idx_main_v18 (idx_main_v19 (ix2 r q)) = ix1 q := funext fun a => Fin.ext (by match a with | ⟨0, _⟩ => rfl)
  rw [e]
  unfold biasClamp1 biasRow1
  refine congrArg₂ max (congrArg₂ (· + ·) rfl ?_) rfl
  exact (LibRowOps.shapeCast_row_apply (b := 128) x4 _ (0 : Fin 1) q).symm

/-- The second host product is the entrywise sum Σ_k h[r, k] · W₂[k, q]. -/
theorem support2 (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v22 (F := Ideal) x0 x1 x2 x3 x4 x5 = product2 (val_main_v21 (F := Ideal) x0 x1 x2 x3 x4) x5 := by
  funext i
  rw [val_main_v22_apply]
  unfold product2
  refine Finset.sum_congr rfl fun k _ => ?_
  have el : lidx_main_v22 i k = ix2 (i 0) k := funext fun a => Fin.ext (by match a with | ⟨0, _⟩ => rfl | ⟨1, _⟩ => rfl)
  have er : ridx_main_v22 i k = ix2 k (i 1) := funext fun a => Fin.ext (by match a with | ⟨0, _⟩ => rfl | ⟨1, _⟩ => rfl)
  rw [el, er]
  rfl

/-- The second layer's gather, scale and segment sum are the network's aggregation of the second support matrix. -/
theorem messages2 (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v35 (F := Ideal) x0 x1 x2 x3 x4 x5 = aggregate2 (val_main_v22 (F := Ideal) x0 x1 x2 x3 x4 x5) (sources x1) (targets x1) x2 := rfl

/-- The second layer's bias and relu, entry by entry. -/
theorem output2 (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v39 (F := Ideal) x0 x1 x2 x3 x4 x5 x6 = biasClamp2 (val_main_v35 (F := Ideal) x0 x1 x2 x3 x4 x5) (biasRow2 x6) := by
  funext i
  obtain ⟨r, q, rfl⟩ : ∃ (r : Fin 50000) (q : Fin 64), i = ix2 r q := ⟨i 0, i 1, eq_ix2 i⟩
  rw [val_main_v39_apply, val_main_v38_apply, val_main_v37_apply, val_main_v36_apply, val_main_call1_v0_apply, val_main_call1_cst_apply]
  have e : idx_main_v36 (idx_main_v37 (ix2 r q)) = ix1 q := funext fun a => Fin.ext (by match a with | ⟨0, _⟩ => rfl)
  rw [e]
  unfold biasClamp2 biasRow2
  refine congrArg₂ max (congrArg₂ (· + ·) rfl ?_) rfl
  exact (LibRowOps.shapeCast_row_apply (b := 64) x6 _ (0 : Fin 1) q).symm

/-- The reference's result is the network's output of its seven arguments. -/
theorem result (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v39 (F := Ideal) x0 x1 x2 x3 x4 x5 x6 = output x0 x1 x2 x3 x4 x5 x6 := by
  unfold output hiddenLayer
  rw [output2, messages2, support2, hidden1, messages1, support1]

end Cert.ReferenceIdeal.Stages

end
-- ==== Proof.lean ====
/-
  The certificate of a two-layer graph convolution: a kernel program that runs each layer's dense projection and its
  bias-and-clamp as row-blocked kernel calls, the gather, scale and segment sum between them on the host, against a
  reference that does all of it on the host.

  At exact arithmetic both compute one function of the seven arguments (Proof/Network.lean): for each layer
  support = h · W, msg[e] = support[src[e]] · ew[e], agg[n] = Σ_{dst[e] = n} msg[e], out = max (agg + b) 0. On the kernel
  side the 25 row blocks of a projection tile the product (Proof/Projection1.lean, Proof/Projection2.lean), those of a
  bias-and-clamp tile max (agg + b) 0 (Proof/BiasClamp1.lean, Proof/BiasClamp2.lean), and the buffer contents are
  followed boundary by boundary (Proof/Boundaries.lean) through the run with the result named (Proof/NamedRun.lean). On
  the reference side a host product is the same entrywise sum and the broadcast bias is the same row
  (Proof/ReferenceStages.lean). The gather, scale and segment sum are the same host operations in both programs and are
  never opened; no step uses finiteness of the inputs. The idealization rewrote nothing, so that conjunct is trivial.
-/
import proofs.«165601_j27754078666886_2_alg».proof.Defs
import proofs.«165601_j27754078666886_2_alg».proof.Proof.Gen.Kernel
import proofs.«165601_j27754078666886_2_alg».proof.Proof.Gen.Kernel.Skeleton
import proofs.«165601_j27754078666886_2_alg».proof.Proof.Gen.Kernel.Launch
import proofs.«165601_j27754078666886_2_alg».proof.Proof.Gen.Kernel.Points
import proofs.«165601_j27754078666886_2_alg».proof.Proof.Gen.Kernel.Frame
import proofs.«165601_j27754078666886_2_alg».proof.Proof.Gen.KernelIdeal
import proofs.«165601_j27754078666886_2_alg».proof.Proof.Gen.KernelIdeal.Skeleton
import proofs.«165601_j27754078666886_2_alg».proof.Proof.Gen.KernelIdeal.Launch
import proofs.«165601_j27754078666886_2_alg».proof.Proof.Gen.KernelIdeal.Points
import proofs.«165601_j27754078666886_2_alg».proof.Proof.Gen.KernelIdeal.Frame
import proofs.«165601_j27754078666886_2_alg».proof.Proof.Gen.ReferenceIdeal
import proofs.«165601_j27754078666886_2_alg».proof.Proof.Gen.ReferenceIdeal.Run
import proofs.«165601_j27754078666886_2_alg».proof.Proof.Gen.ReferenceIdeal.Read
import proofs.«165601_j27754078666886_2_alg».proof.Proof.Gen.Pre_finite_inputs
import proofs.«165601_j27754078666886_2_alg».proof.Proof.NamedRun
import proofs.«165601_j27754078666886_2_alg».proof.Proof.Boundaries
import proofs.«165601_j27754078666886_2_alg».proof.Proof.ReferenceStages
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the network's output of those arguments. -/
theorem algebraic : Cert.algebraic_KernelIdeal_ReferenceIdeal := by
  intro m ρ m' ρ' _ hagree
  refine ⟨fun c => Cert.KernelIdeal.Network.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Boundaries.result m ρ c), (h c).2⟩)
      (Cert.KernelIdeal.Outcome.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    refine ((Cert.ReferenceIdeal.Read.val_main_v39_eq (F := Ideal) _ _ _ _ _ _ _).trans
      (Cert.ReferenceIdeal.Stages.result _ _ _ _ _ _ _)).trans ?_
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
